-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S6x1024 : Shape := ⟨2, ![6, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S6x1024 : S_.BroadcastsInDim S6x1024 (![] : Fin 0 → Fin S6x1024.rank)
  reducesTo_S6x1024_S_d0_1 : S6x1024.ReducesTo [0, 1] S_

variable [Facts]

def fn_part2 {F : FTy → Type} [FloatOps F] (main_arg7 : FVec F S1024x1024 .f32) (main_arg8 : FVec F S6x1024 .f32) (main_arg9 : FVec F S6x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S6x1024 .f32 := Host.absf main_arg8
  let main_cst_14 : FVec F S_ .f32 := constant S_ .f32 0x7F800000#32
  let main_v40 : FVec F S6x1024 .f32 := broadcastInDim S6x1024 ![] bcast_S_S6x1024 main_cst_14
  let main_v41 : IVec S6x1024 1 := cmpf .olt main_v39 main_v40
  let main_c_15 : IVec S_ 1 := constantI S_ 1 1#1
  let main_v42 : IVec S_ 1 := (fun x v => Host.reduce IntOp.andi x v reducesTo_S6x1024_S_d0_1 h_S_) main_v41 main_c_15
  let main_v43 : IVec S_ 1 := andi main_v38 main_v42
  let main_v44 : FVec F S6x1024 .f32 := Host.absf main_arg9
  let main_cst_16 : FVec F S_ .f32 := constant S_ .f32 0x7F800000#32
  let main_v45 : FVec F S6x1024 .f32 := broadcastInDim S6x1024 ![] bcast_S_S6x1024 main_cst_16
  let main_v46 : IVec S6x1024 1 := cmpf .olt main_v44 main_v45
  let main_c_17 : IVec S_ 1 := constantI S_ 1 1#1
  let main_v47 : IVec S_ 1 := (fun x v => Host.reduce IntOp.andi x v reducesTo_S6x1024_S_d0_1 h_S_) main_v46 main_c_17
  let main_v48 : IVec S_ 1 := andi main_v43 main_v47
  main_v48

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S6x1024 .f32) (main_arg9 : FVec F S6x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S6x1024 .f32) (main_arg9 : FVec F S6x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024x1024 : Shape := ⟨2, ![1024, 1024]⟩
abbrev S6x1024 : Shape := ⟨2, ![6, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S6x1024, .f32⟩
  | .hbm, ⟨9, _⟩ => ⟨S6x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S6x1024, .f32⟩
  | .local _ .vmem, ⟨11, _⟩ => ⟨S6x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S6x1024_S6x1024_0_0 : ∀ a, (![0, 0] : Fin 2 → Nat) a + S6x1024.size a ≤ S6x1024.size a
  h_S6x1024 : 0 < S6x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S6x1024_o0_0_S1x1024 : S6x1024.Slices ![0, 0] S1x1024
  reduces_S512x1024_S512 : S512x1024.Reduces [1] S512
  shapeCasts_S512_S512x1 : S512.ShapeCasts S512x1
  broadcasts_S512x1_S512x1024 : S512x1.Broadcasts S512x1024
  broadcasts_S1x1024_S512x1024 : S1x1024.Broadcasts S512x1024
  slices_S6x1024_o1_0_S1x1024 : S6x1024.Slices ![1, 0] S1x1024
  slices_S6x1024_o2_0_S1x1024 : S6x1024.Slices ![2, 0] S1x1024
  slices_S6x1024_o3_0_S1x1024 : S6x1024.Slices ![3, 0] S1x1024
  slices_S6x1024_o4_0_S1x1024 : S6x1024.Slices ![4, 0] S1x1024
  slices_S6x1024_o5_0_S1x1024 : S6x1024.Slices ![5, 0] S1x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x1024.size a ≤ S6x1024.size a
  hwx0_8 : ∀ i : grid0.Coords, EltTy.bits .f32 = 32 ∨ (Rect.block (s := S6x1024) S6x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x1024.size a ≤ S6x1024.size a
  hwx0_9 : ∀ i : grid0.Coords, EltTy.bits .f32 = 32 ∨ (Rect.block (s := S6x1024) S6x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .f32 = 32 ∨ (Rect.block (s := S8192x1024) S512x1024.size (cc0_transform_10 i) (hinb0_10 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 247
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1024x1024, .f32⟩
  | 8 => ⟨S6x1024, .f32⟩
  | 9 => ⟨S6x1024, .f32⟩
  | 10 => ⟨S1024x1024, .f32⟩
  | 11 => ⟨S8192x1024, .f32⟩
  | 12 => ⟨S1x1024, .f32⟩
  | 13 => ⟨S1024, .f32⟩
  | 14 => ⟨S1x1024, .f32⟩
  | 15 => ⟨S1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S_, .f32⟩
  | 34 => ⟨S8192x1, .f32⟩
  | 35 => ⟨S8192x1, .f32⟩
  | 36 => ⟨S8192x1, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S1024x1024, .f32⟩
  | 46 => ⟨S8192x1024, .f32⟩
  | 47 => ⟨S1x1024, .f32⟩
  | 48 => ⟨S1024, .f32⟩
  | 49 => ⟨S1x1024, .f32⟩
  | 50 => ⟨S1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S_, .f32⟩
  | 69 => ⟨S8192x1, .f32⟩
  | 70 => ⟨S8192x1, .f32⟩
  | 71 => ⟨S8192x1, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S1024x1024, .f32⟩
  | 90 => ⟨S8192x1024, .f32⟩
  | 91 => ⟨S1x1024, .f32⟩
  | 92 => ⟨S1024, .f32⟩
  | 93 => ⟨S1x1024, .f32⟩
  | 94 => ⟨S1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S8192x1024, .f32⟩
  | 111 => ⟨S8192x1024, .f32⟩
  | 112 => ⟨S_, .f32⟩
  | 113 => ⟨S8192x1, .f32⟩
  | 114 => ⟨S8192x1, .f32⟩
  | 115 => ⟨S8192x1, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S1x1024, .f32⟩
  | 122 => ⟨S8192x1024, .f32⟩
  | 123 => ⟨S8192x1024, .f32⟩
  | 124 => ⟨S1024x1024, .f32⟩
  | 125 => ⟨S8192x1024, .f32⟩
  | 126 => ⟨S1x1024, .f32⟩
  | 127 => ⟨S1024, .f32⟩
  | _ => ⟨S8192x1024, .f32⟩

abbrev hbmTy0_1 (i : Nat) : BufTy := match i % 128 with
  | 0 => ⟨S1x1024, .f32⟩
  | 1 => ⟨S1024, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S8192x1024, .f32⟩
  | 41 => ⟨S1024x1024, .f32⟩
  | 42 => ⟨S8192x1024, .f32⟩
  | 43 => ⟨S1x1024, .f32⟩
  | 44 => ⟨S1024, .f32⟩
  | 45 => ⟨S1x1024, .f32⟩
  | 46 => ⟨S1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S_, .f32⟩
  | 65 => ⟨S8192x1, .f32⟩
  | 66 => ⟨S8192x1, .f32⟩
  | 67 => ⟨S8192x1, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S1024x1024, .f32⟩
  | 77 => ⟨S8192x1024, .f32⟩
  | 78 => ⟨S1x1024, .f32⟩
  | 79 => ⟨S1024, .f32⟩
  | 80 => ⟨S1x1024, .f32⟩
  | 81 => ⟨S1024, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x1024, .f32⟩
  | 89 => ⟨S8192x1024, .f32⟩
  | 90 => ⟨S8192x1024, .f32⟩
  | 91 => ⟨S_, .f32⟩
  | 92 => ⟨S8192, .f32⟩
  | 93 => ⟨S8192x1, .f32⟩
  | 94 => ⟨S_, .f32⟩
  | 95 => ⟨S8192x1, .f32⟩
  | 96 => ⟨S8192x1, .f32⟩
  | 97 => ⟨S8192x1024, .f32⟩
  | 98 => ⟨S8192x1024, .f32⟩
  | 99 => ⟨S_, .f32⟩
  | 100 => ⟨S8192x1, .f32⟩
  | 101 => ⟨S8192x1, .f32⟩
  | 102 => ⟨S8192x1, .f32⟩
  | 103 => ⟨S8192x1024, .f32⟩
  | 104 => ⟨S8192x1024, .f32⟩
  | 105 => ⟨S1x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_cst_17 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_18 : Ref sig .tc := ⟨.hbm, 139, rfl⟩
abbrev main_v110 : Ref sig .tc := ⟨.hbm, 140, rfl⟩
abbrev main_v111 : Ref sig .tc := ⟨.hbm, 141, rfl⟩
abbrev main_cst_19 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_20 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_21 : Ref sig .tc := ⟨.hbm, 162, rfl⟩
abbrev main_v130 : Ref sig .tc := ⟨.hbm, 163, rfl⟩
abbrev main_v131 : Ref sig .tc := ⟨.hbm, 164, rfl⟩
abbrev main_cst_22 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_cst_23 : Ref sig .tc := ⟨.hbm, 175, rfl⟩
abbrev main_v141 : Ref sig .tc := ⟨.hbm, 176, rfl⟩
abbrev main_v142 : Ref sig .tc := ⟨.hbm, 177, rfl⟩
abbrev main_cst_24 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_25 : Ref sig .tc := ⟨.hbm, 184, rfl⟩
abbrev main_v148 : Ref sig .tc := ⟨.hbm, 185, rfl⟩
abbrev main_v149 : Ref sig .tc := ⟨.hbm, 186, rfl⟩
abbrev main_cst_26 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_27 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_28 : Ref sig .tc := ⟨.hbm, 210, rfl⟩
abbrev main_v171 : Ref sig .tc := ⟨.hbm, 211, rfl⟩
abbrev main_v172 : Ref sig .tc := ⟨.hbm, 212, rfl⟩
abbrev main_cst_29 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_cst_30 : Ref sig .tc := ⟨.hbm, 219, rfl⟩
abbrev main_v178 : Ref sig .tc := ⟨.hbm, 220, rfl⟩
abbrev main_v179 : Ref sig .tc := ⟨.hbm, 221, rfl⟩
abbrev main_cst_31 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_cst_32 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_33 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩

abbrev nD : Nat := 1
abbrev τ : Topo := Topo.v7x

variable {F : FTy → Type} [FloatOps F]

class Facts₀ : Prop where
  transposes_S1024x1024_S1024x1024_1_0 : S1024x1024.Transposes [1, 0] S1024x1024
  slices_S6x1024_S1x1024_0_0 : S6x1024.Slices ![0, 0] S1x1024
  shapeCasts_S1x1024_S1024 : S1x1024.ShapeCasts S1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  slices_S6x1024_S1x1024_1_0 : S6x1024.Slices ![1, 0] S1x1024
  bcast_S_S8192x1024 : S_.BroadcastsInDim S8192x1024 (![] : Fin 0 → Fin S8192x1024.rank)
  slices_S6x1024_S1x1024_2_0 : S6x1024.Slices ![2, 0] S1x1024
  slices_S6x1024_S1x1024_3_0 : S6x1024.Slices ![3, 0] S1x1024
  slices_S6x1024_S1x1024_4_0 : S6x1024.Slices ![4, 0] S1x1024
  slices_S6x1024_S1x1024_5_0 : S6x1024.Slices ![5, 0] S1x1024
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.Consts.lean ====
/-
  The float literals of the two programs as the extended reals their words denote.

  Four words occur: +0.0, 1.0, 1024.0 (the length of a normalised row) and the small positive number added to
  a variance before the reciprocal square root. The first three are the reals 0, 1 and 1024; of the last only
  that it is a positive real is ever used.
-/
import Idealize.ShloMosaic.PureOps.Ideal

noncomputable section

namespace Cert.GruConsts

open Idealize.ShloMosaic

/-- The word of 1.0 denotes 1. -/
theorem ofBits_one : Ideal.ofBits .f32 0x3F800000#32 = 1 := by
  simp [Ideal.ofBits, Ideal.ieee, -EReal.coe_mul]; norm_num

/-- The word of 1024.0 denotes the real 1024. -/
theorem ofBits_1024 : Ideal.ofBits .f32 0x44800000#32 = ((1024 : ℝ) : EReal) := by
  simp [Ideal.ofBits, Ideal.ieee, -EReal.coe_mul]; norm_num

/-- The word of the variance offset denotes 10995116 · 2⁻⁴⁰. -/
theorem ofBits_eps_val : Ideal.ofBits .f32 0x3727C5AC#32 = (((10995116 : ℝ) * (2 : ℝ) ^ (-40 : ℤ) : ℝ) : EReal) := by
  simp [Ideal.ofBits, Ideal.ieee, -EReal.coe_mul]

/-- The variance offset is a positive real. -/
theorem ofBits_eps : ∃ e : ℝ, 0 < e ∧ Ideal.ofBits .f32 0x3727C5AC#32 = (e : EReal) :=
  ⟨(10995116 : ℝ) * (2 : ℝ) ^ (-40 : ℤ), by positivity, ofBits_eps_val⟩

end Cert.GruConsts

end
-- ==== Proof.GruSpec.lean ====
/-
  The layer-normalised gated recurrent cell on one row, over the extended reals, and the law that joins its two
  spellings.

  A row is a vector of 1024 extended reals. A row times a 1024 × 1024 matrix is the row of sums over k of
  a(k) · W(k, j). Normalising a row y subtracts its mean (∑ y)/1024, multiplies by the reciprocal square root
  of (variance + offset), then by a gain row and adds a bias row. The variance is spelt two ways:

      clamped:    max((∑ y²)/1024 − mean², 0)
      centred:    (∑ (y − mean)²)/1024

  A gate adds the normalised products of the hidden row and of the input row with two matrices. The cell is

      r = logistic(gate_r),  u = logistic(gate_u),  c = tanh(gate_c with the hidden row scaled by r),
      out = (1 − u) · h + u · c.

  The two variances agree on rows of real numbers (the variance law), and every row met on the way is a row of
  real numbers when the inputs are: products, sums, quotients by 1024, reciprocal square roots of positive
  reals and the logistic function keep real numbers real. So the cell is the same function under either spelling.
-/
import Idealize.ShloMosaic.PureOps.Ideal
import Idealize.ShloMosaic.PureOps.Ideal.Laws
import proofs.«119024_j25838523253290_2_alg».proof.Proof.LibRealSums
import proofs.«119024_j25838523253290_2_alg».proof.Proof.Consts

noncomputable section

open scoped BigOperators

namespace Cert.GruSpec

open Idealize.ShloMosaic Cert.RealSums Cert.GruConsts

/-- A row of 1024 extended reals. -/
abbrev Row : Type := Fin 1024 → EReal

/-- A 1024 × 1024 matrix, entry (k, j). -/
abbrev Mat : Type := Fin 1024 → Fin 1024 → EReal

/-- An extended real that is a real number. -/
abbrev IsR (a : EReal) : Prop := ∃ r : ℝ, a = (r : EReal)

/-- A row times a matrix: entry j is the sum over k of a(k) · W(k, j). -/
def rowDot (a : Row) (W : Mat) : Row := fun j => ∑ k, a k * W k j

/-- The mean of a row. -/
def mean (y : Row) : EReal := Ideal.div (∑ k, y k) (Ideal.ofBits .f32 0x44800000#32)

/-- The variance as mean of squares minus squared mean, clamped at zero. -/
def varClamped (y : Row) : EReal :=
  max (Ideal.div (∑ k, y k * y k) (Ideal.ofBits .f32 0x44800000#32) - mean y * mean y) (Ideal.ofBits .f32 0x00000000#32)

/-- The variance as mean of the squared deviations from the mean. -/
def varCentred (y : Row) : EReal :=
  Ideal.div (∑ k, (y k - mean y) * (y k - mean y)) (Ideal.ofBits .f32 0x44800000#32)

/-- Layer normalisation of a row under a chosen spelling of the variance, with gain g and bias b. -/
def lnorm (var : Row → EReal) (y g b : Row) : Row := fun j =>
  (y j - mean y) * Ideal.rsqrt (var y + Ideal.ofBits .f32 0x3727C5AC#32) * g j + b j

/-- A gate before its squashing function: two normalised row-matrix products added. -/
def gate (var : Row → EReal) (a1 a2 : Row) (W1 W2 : Mat) (g1 b1 g2 b2 : Row) : Row := fun j =>
  lnorm var (rowDot a1 W1) g1 b1 j + lnorm var (rowDot a2 W2) g2 b2 j

/-- The cell on one row: input row x, hidden row h, six matrices, six gain rows and six bias rows. -/
def cell (var : Row → EReal) (x h : Row) (Wr Ur Wu Uu Wc Uc : Mat) (g b : Fin 6 → Row) : Row := fun j =>
  (Ideal.ofBits .f32 0x3F800000#32 - Ideal.logistic (gate var h x Wu Uu (g 2) (b 2) (g 3) (b 3) j)) * h j
    + Ideal.logistic (gate var h x Wu Uu (g 2) (b 2) (g 3) (b 3) j)
      * Ideal.tanh (gate var (fun k => h k * Ideal.logistic (gate var h x Wr Ur (g 0) (b 0) (g 1) (b 1) k)) x
          Wc Uc (g 4) (b 4) (g 5) (b 5) j)

/-! ## The variance law on real rows -/

theorem card_row : ((Fintype.card (Fin 1024) : ℕ) : ℝ) = 1024 := by simp

/-- On a row of real numbers the clamped and the centred variance are one number. -/
theorem varClamped_eq_varCentred (y : Row) (hy : ∀ k, IsR (y k)) : varClamped y = varCentred y := by
  unfold varClamped varCentred mean
  rw [Ideal.ofBits_zero_f32, ofBits_1024]
  exact var_law y hy 1024 card_row (by norm_num)

/-- The centred variance of a real row is a nonnegative real. -/
theorem varCentred_real (y : Row) (hy : ∀ k, IsR (y k)) : ∃ v : ℝ, 0 ≤ v ∧ varCentred y = (v : EReal) := by
  unfold varCentred mean
  rw [ofBits_1024]
  exact var_isReal_nonneg y hy 1024 (by norm_num)

/-! ## Real rows stay real -/

theorem rowDot_real (a : Row) (W : Mat) (ha : ∀ k, IsR (a k)) (hW : ∀ k j, IsR (W k j)) (j : Fin 1024) :
    IsR (rowDot a W j) :=
  isReal_sum _ fun k => isReal_mul (ha k) (hW k j)

theorem mean_real (y : Row) (hy : ∀ k, IsR (y k)) : IsR (mean y) := by
  unfold mean
  rw [ofBits_1024]
  exact isReal_div (isReal_sum _ hy) (by norm_num)

/-- The logistic function of a real is a real. -/
theorem logistic_real {a : EReal} (ha : IsR a) : IsR (Ideal.logistic a) := by
  obtain ⟨r, rfl⟩ := ha
  exact ⟨_, Ideal.logistic_coe r⟩

/-- A normalised real row (centred variance) with real gain and bias is real. -/
theorem lnorm_real (y g b : Row) (hy : ∀ k, IsR (y k)) (hg : ∀ k, IsR (g k)) (hb : ∀ k, IsR (b k)) (j : Fin 1024) :
    IsR (lnorm varCentred y g b j) := by
  unfold lnorm
  obtain ⟨v, hv, ev⟩ := varCentred_real y hy
  obtain ⟨e, he, ee⟩ := ofBits_eps
  have hrs : IsR (Ideal.rsqrt (varCentred y + Ideal.ofBits .f32 0x3727C5AC#32)) := by
    rw [ev, ee, ← EReal.coe_add]
    exact isReal_rsqrt ⟨v + e, by linarith, rfl⟩
  exact isReal_add (isReal_mul (isReal_mul (isReal_sub (hy j) (mean_real y hy)) hrs) (hg j)) (hb j)

theorem gate_real (a1 a2 : Row) (W1 W2 : Mat) (g1 b1 g2 b2 : Row) (h1 : ∀ k, IsR (a1 k)) (h2 : ∀ k, IsR (a2 k))
    (hW1 : ∀ k j, IsR (W1 k j)) (hW2 : ∀ k j, IsR (W2 k j)) (hg1 : ∀ k, IsR (g1 k)) (hb1 : ∀ k, IsR (b1 k))
    (hg2 : ∀ k, IsR (g2 k)) (hb2 : ∀ k, IsR (b2 k)) (j : Fin 1024) :
    IsR (gate varCentred a1 a2 W1 W2 g1 b1 g2 b2 j) := by
  unfold gate
  exact isReal_add (lnorm_real _ g1 b1 (rowDot_real a1 W1 h1 hW1) hg1 hb1 j)
    (lnorm_real _ g2 b2 (rowDot_real a2 W2 h2 hW2) hg2 hb2 j)

/-! ## The two spellings are one function -/

/-- A gate of real rows and matrices is the same under either variance. -/
theorem gate_var (a1 a2 : Row) (W1 W2 : Mat) (g1 b1 g2 b2 : Row) (h1 : ∀ k, IsR (a1 k)) (h2 : ∀ k, IsR (a2 k))
    (hW1 : ∀ k j, IsR (W1 k j)) (hW2 : ∀ k j, IsR (W2 k j)) :
    gate varClamped a1 a2 W1 W2 g1 b1 g2 b2 = gate varCentred a1 a2 W1 W2 g1 b1 g2 b2 := by
  funext j
  unfold gate lnorm
  rw [varClamped_eq_varCentred _ (rowDot_real a1 W1 h1 hW1), varClamped_eq_varCentred _ (rowDot_real a2 W2 h2 hW2)]

/-- The cell on real inputs is the same function under either variance. -/
theorem cell_var (x h : Row) (Wr Ur Wu Uu Wc Uc : Mat) (g b : Fin 6 → Row)
    (hx : ∀ k, IsR (x k)) (hh : ∀ k, IsR (h k))
    (hWr : ∀ k j, IsR (Wr k j)) (hUr : ∀ k j, IsR (Ur k j)) (hWu : ∀ k j, IsR (Wu k j)) (hUu : ∀ k j, IsR (Uu k j))
    (hWc : ∀ k j, IsR (Wc k j)) (hUc : ∀ k j, IsR (Uc k j)) (hg : ∀ i k, IsR (g i k)) (hb : ∀ i k, IsR (b i k)) :
    cell varClamped x h Wr Ur Wu Uu Wc Uc g b = cell varCentred x h Wr Ur Wu Uu Wc Uc g b := by
  have e1 := gate_var h x Wr Ur (g 0) (b 0) (g 1) (b 1) hh hx hWr hUr
  have e2 := gate_var h x Wu Uu (g 2) (b 2) (g 3) (b 3) hh hx hWu hUu
  have hr : ∀ k, IsR (h k * Ideal.logistic (gate varCentred h x Wr Ur (g 0) (b 0) (g 1) (b 1) k)) := fun k =>
    isReal_mul (hh k) (logistic_real (gate_real h x Wr Ur (g 0) (b 0) (g 1) (b 1) hh hx hWr hUr (hg 0) (hb 0) (hg 1) (hb 1) k))
  have e3 := gate_var (fun k => h k * Ideal.logistic (gate varCentred h x Wr Ur (g 0) (b 0) (g 1) (b 1) k)) x Wc Uc
    (g 4) (b 4) (g 5) (b 5) hr hx hWc hUc
  funext j
  unfold cell
  rw [e1, e2, e3]

end Cert.GruSpec

end
-- ==== Proof.GruArray.lean ====
/-
  The cell as one function of the whole argument arrays.

  The result array has 8192 rows of 1024 entries. Entry (i, j) is the cell of row i of the input x and of the
  hidden state h, entry j, with each 1024 × 1024 weight array entering transposed — the matrix whose entry (k, j)
  is W(j, k) — and row r of the 6 × 1024 parameter arrays as gain and bias of the r-th normalisation. When every
  entry of every argument is a real number the clamped and the centred variance give the same array.
-/
import Idealize.ShloMosaic.Lib.ValueIdx
import proofs.«119024_j25838523253290_2_alg».proof.Proof.GruSpec

noncomputable section

namespace Cert.GruSpec

open Idealize.ShloMosaic Idealize.ShloMosaic.ValueIdx

/-- An a × b array of extended reals. -/
abbrev Arr (a b : Nat) : Type := (⟨2, ![a, b]⟩ : Shape).Idx → EReal

/-- A weight array as the matrix the products are taken with: entry (k, j) is W(j, k). -/
abbrev tr (W : Arr 1024 1024) : Mat := fun k j => W (ix2 j k)

/-- The rows of a parameter array. -/
abbrev rows (v : Arr 6 1024) : Fin 6 → Row := fun r k => v (ix2 r k)

/-- The result array of the cell under a chosen spelling of the variance. -/
def cellArr (var : Row → EReal) (x h : Arr 8192 1024) (Wr Ur Wu Uu Wc Uc : Arr 1024 1024) (g b : Arr 6 1024) :
    Arr 8192 1024 := fun i =>
  cell var (fun k => x (ix2 (i 0 : Fin 8192) k)) (fun k => h (ix2 (i 0 : Fin 8192) k))
    (tr Wr) (tr Ur) (tr Wu) (tr Uu) (tr Wc) (tr Uc) (rows g) (rows b) (i 1 : Fin 1024)

theorem cellArr_ix2 (var : Row → EReal) (x h : Arr 8192 1024) (Wr Ur Wu Uu Wc Uc : Arr 1024 1024) (g b : Arr 6 1024)
    (p : Fin 8192) (q : Fin 1024) :
    cellArr var x h Wr Ur Wu Uu Wc Uc g b (ix2 p q)
      = cell var (fun k => x (ix2 p k)) (fun k => h (ix2 p k)) (tr Wr) (tr Ur) (tr Wu) (tr Uu) (tr Wc) (tr Uc)
          (rows g) (rows b) q := rfl

/-- On arrays of real numbers the two spellings of the variance give the same result array. -/
theorem cellArr_var (x h : Arr 8192 1024) (Wr Ur Wu Uu Wc Uc : Arr 1024 1024) (g b : Arr 6 1024)
    (hx : ∀ i, IsR (x i)) (hh : ∀ i, IsR (h i)) (hWr : ∀ i, IsR (Wr i)) (hUr : ∀ i, IsR (Ur i)) (hWu : ∀ i, IsR (Wu i))
    (hUu : ∀ i, IsR (Uu i)) (hWc : ∀ i, IsR (Wc i)) (hUc : ∀ i, IsR (Uc i)) (hg : ∀ i, IsR (g i)) (hb : ∀ i, IsR (b i)) :
    cellArr varClamped x h Wr Ur Wu Uu Wc Uc g b = cellArr varCentred x h Wr Ur Wu Uu Wc Uc g b := by
  funext i
  unfold cellArr
  rw [cell_var _ _ (tr Wr) (tr Ur) (tr Wu) (tr Uu) (tr Wc) (tr Uc) (rows g) (rows b) (fun k => hx _) (fun k => hh _)
    (fun k j => hWr _) (fun k j => hUr _) (fun k j => hWu _) (fun k j => hUu _) (fun k j => hWc _) (fun k j => hUc _)
    (fun r k => hg _) (fun r k => hb _)]

end Cert.GruSpec

end
-- ==== Proof.Finite.lean ====
/-
  From the precondition to "every entry of every argument is a real number".

  The precondition tests, for each of the ten argument arrays, that every entry's absolute value is below +∞, and
  joins the ten answers by "and". An "and" that is 1 had both operands 1; a reduction by "and" over a whole array
  that is 1 had a 1 at every index; and an extended real whose absolute value max(x, −x) is below +∞ is neither
  infinity, so it is a real number.
-/
import proofs.«119024_j25838523253290_2_alg».proof.Pre_finite_inputs
import Idealize.ShloMosaic.Lib.ReduceAll
import Idealize.ShloMosaic.Lib.ValueIdx
import Idealize.ShloMosaic.Lib.Affine
import Idealize.ShloMosaic.PureOps.Ideal

noncomputable section

namespace Cert.GruFinite

open Idealize.ShloMosaic Cert.Pre_finite_inputs

instance : Subsingleton S_.Idx := ⟨fun a b => funext fun d => d.elim0⟩

/-- The f32 word of +∞ denotes ⊤. -/
theorem ofBits_inf : Ideal.ofBits .f32 0x7F800000#32 = ⊤ := by
  simp [Ideal.ofBits, Ideal.ieee]

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One test "all entries have absolute value below +∞" that answers 1 makes every entry a real number. -/
theorem real_of_all {s : Shape} {axes : List (Fin s.rank)} (a : FVec Ideal s .f32) (hb : S_.BroadcastsInDim s ![])
    (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) :=
  real_of_abs_lt_top (a i) (Host.reduce_andi_all _ _ hr hu ValueIdx.ix0 e i)

/-- Under the precondition every entry of every argument array is a real number. -/
theorem real_of_pre [Cert.Pre_finite_inputs.Facts] (a0 a1 : FVec Ideal S8192x1024 .f32)
    (a2 a3 a4 a5 a6 a7 : FVec Ideal S1024x1024 .f32) (a8 a9 : FVec Ideal S6x1024 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) := by
  have h0 := congrFun h ValueIdx.ix0
  dsimp only [fn, fn_part1, fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9⟩

end Cert.GruFinite

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KernelRow.lean ====
/-
  What the kernel's vector operations compute on one block of 512 rows, read at an index.

  The body works on a 512 × 1024 block y of products. Its mean column is the row sums divided by 1024, stood up
  as a 512 × 1 column; its variance column is the clamped form max(mean of squares − squared mean, 0); the
  normalised block subtracts the mean column spread over the 1024 lanes, multiplies by the spread reciprocal
  square root of (variance + offset), by a 1 × 1024 gain row spread over the 512 rows, and adds a bias row spread
  the same way. Read at (p, q) each of these is the row function of the specification applied to row p of the
  block: a lane sum is the sum over the row, a column entry (p, 0) is the row's own number, a spread row entry is
  the row's entry q. A product with a 1024 × 1024 matrix into a zero accumulator is the row-matrix product.
-/
import Idealize.ShloMosaic.Lib.Pipeline.Value
import Idealize.ShloMosaic.Lib.ValueIdx
import Idealize.ShloMosaic.PureOps.Ideal.Laws
import proofs.«119024_j25838523253290_2_alg».proof.Proof.Gen.KernelIdeal.Skeleton
import proofs.«119024_j25838523253290_2_alg».proof.Proof.LibRowOps
import proofs.«119024_j25838523253290_2_alg».proof.Proof.LibRowSpread
import proofs.«119024_j25838523253290_2_alg».proof.Proof.LibPlainDot
import proofs.«119024_j25838523253290_2_alg».proof.Proof.GruSpec

noncomputable section

open scoped BigOperators

namespace Cert.GruKernel

open Cert.KernelIdeal Cert.KernelIdeal.Gen Idealize.ShloMosaic Idealize.ShloMosaic.ValueIdx Cert.GruSpec

/-- The row sums of a block, as a 512 × 1 column. -/
def vrowsum (y : FVec Ideal S512x1024 .f32) : FVec Ideal S512x1 .f32 :=
  shapeCast S512x1 (multiReduction .add [1] S512 y 0x00000000#32 reduces_S512x1024_S512 (.inl rfl) rfl) shapeCasts_S512_S512x1

/-- A scalar literal as a 512 × 1 column. -/
def vlit (w : BitVec 32) : FVec Ideal S512x1 .f32 := broadcast S512x1 (Scalar.ofBits .f32 w)

/-- The mean column of a block: row sums over 1024. -/
def vmean (y : FVec Ideal S512x1024 .f32) : FVec Ideal S512x1 .f32 := divf (vrowsum y) (vlit 0x44800000#32)

/-- The variance column of a block, clamped form. -/
def vvar (y : FVec Ideal S512x1024 .f32) : FVec Ideal S512x1 .f32 :=
  maximumf (subf (divf (vrowsum (mulf y y)) (vlit 0x44800000#32)) (mulf (vmean y) (vmean y))) (vlit 0x00000000#32)

/-- The normalised block with a gain row and a bias row. -/
def vnorm (y : FVec Ideal S512x1024 .f32) (gk bk : FVec Ideal S1x1024 .f32) : FVec Ideal S512x1024 .f32 :=
  addf (mulf (mulf (subf y (broadcastTo S512x1024 (vmean y) broadcasts_S512x1_S512x1024))
        (broadcastTo S512x1024 (rsqrt (addf (vvar y) (vlit 0x3727C5AC#32))) broadcasts_S512x1_S512x1024))
      (broadcastTo S512x1024 gk broadcasts_S1x1024_S512x1024))
    (broadcastTo S512x1024 bk broadcasts_S1x1024_S512x1024)

/-- A block times a resident 1024 × 1024 matrix, into the zero accumulator. -/
def vmm (a : FVec Ideal S512x1024 .bf16) (w : FVec Ideal S1024x1024 .bf16) : FVec Ideal S512x1024 .f32 :=
  matmul dot_S512x1024_S1024x1024_S512x1024_1_0_0_1_n_n none a (shapeCast S1024x1024 w shapeCasts_S1024x1024_S1024x1024)
    (constant S512x1024 .f32 0x00000000#32)

/-- A gate before its squashing function, on a block. -/
def vgate (a1 a2 : FVec Ideal S512x1024 .bf16) (w1 w2 : FVec Ideal S1024x1024 .bf16) (g1 b1 g2 b2 : FVec Ideal S1x1024 .f32) :
    FVec Ideal S512x1024 .f32 :=
  addf (vnorm (vmm a1 w1) g1 b1) (vnorm (vmm a2 w2) g2 b2)

/-! ## Read at an index -/

theorem vrowsum_apply (y : FVec Ideal S512x1024 .f32) (p : Fin 512) :
    vrowsum y (ix2 p (0 : Fin 1)) = ∑ k : Fin 1024, y (ix2 p k) :=
  (RowOps.colCast_apply _ shapeCasts_S512_S512x1 p).trans
    (RowOps.rowSum_vector y 0x00000000#32 reduces_S512x1024_S512 (.inl rfl) rfl p)

theorem vlit_apply (w : BitVec 32) (i : S512x1.Idx) : vlit w i = Ideal.ofBits .f32 w := rfl

theorem vmean_apply (y : FVec Ideal S512x1024 .f32) (p : Fin 512) :
    vmean y (ix2 p (0 : Fin 1)) = mean (fun k => y (ix2 p k)) := by
  unfold vmean mean
  show Ideal.div (vrowsum y (ix2 p (0 : Fin 1))) (vlit 0x44800000#32 (ix2 p (0 : Fin 1))) = _
  rw [vrowsum_apply, vlit_apply]

theorem vvar_apply (y : FVec Ideal S512x1024 .f32) (p : Fin 512) :
    vvar y (ix2 p (0 : Fin 1)) = varClamped (fun k => y (ix2 p k)) := by
  unfold vvar varClamped
  show max (Ideal.div (vrowsum (mulf y y) (ix2 p (0 : Fin 1))) (vlit 0x44800000#32 (ix2 p (0 : Fin 1)))
      - vmean y (ix2 p (0 : Fin 1)) * vmean y (ix2 p (0 : Fin 1))) (vlit 0x00000000#32 (ix2 p (0 : Fin 1))) = _
  rw [vrowsum_apply, vmean_apply, vlit_apply, vlit_apply]
  rfl

theorem vnorm_apply (y : FVec Ideal S512x1024 .f32) (gk bk : FVec Ideal S1x1024 .f32) (p : Fin 512) (q : Fin 1024) :
    vnorm y gk bk (ix2 p q)
      = lnorm varClamped (fun k => y (ix2 p k)) (fun k => gk (ix2 (0 : Fin 1) k)) (fun k => bk (ix2 (0 : Fin 1) k)) q := by
  unfold vnorm lnorm
  show (y (ix2 p q) - broadcastTo S512x1024 (vmean y) broadcasts_S512x1_S512x1024 (ix2 p q))
      * broadcastTo S512x1024 (rsqrt (addf (vvar y) (vlit 0x3727C5AC#32))) broadcasts_S512x1_S512x1024 (ix2 p q)
      * broadcastTo S512x1024 gk broadcasts_S1x1024_S512x1024 (ix2 p q)
      + broadcastTo S512x1024 bk broadcasts_S1x1024_S512x1024 (ix2 p q) = _
  rw [RowOps.colBcast_apply, RowOps.colBcast_apply, RowSpread.rowBcast_apply, RowSpread.rowBcast_apply]
  show (y (ix2 p q) - vmean y (ix2 p (0 : Fin 1)))
      * Ideal.rsqrt (vvar y (ix2 p (0 : Fin 1)) + vlit 0x3727C5AC#32 (ix2 p (0 : Fin 1)))
      * gk (ix2 (0 : Fin 1) q) + bk (ix2 (0 : Fin 1) q) = _
  rw [vmean_apply, vvar_apply, vlit_apply]

theorem vmm_apply (a : FVec Ideal S512x1024 .bf16) (w : FVec Ideal S1024x1024 .bf16) (p : Fin 512) (q : Fin 1024) :
    vmm a w (ix2 p q) = rowDot (fun k => a (ix2 p k)) (fun k j => w (ix2 k j)) q := by
  unfold vmm rowDot
  rw [shapeCast_self]
  exact PlainDot.matmul_zero_apply none a w p q

theorem vgate_apply (a1 a2 : FVec Ideal S512x1024 .bf16) (w1 w2 : FVec Ideal S1024x1024 .bf16)
    (g1 b1 g2 b2 : FVec Ideal S1x1024 .f32) (p : Fin 512) (q : Fin 1024) :
    vgate a1 a2 w1 w2 g1 b1 g2 b2 (ix2 p q)
      = gate varClamped (fun k => a1 (ix2 p k)) (fun k => a2 (ix2 p k)) (fun k j => w1 (ix2 k j)) (fun k j => w2 (ix2 k j))
          (fun k => g1 (ix2 (0 : Fin 1) k)) (fun k => b1 (ix2 (0 : Fin 1) k))
          (fun k => g2 (ix2 (0 : Fin 1) k)) (fun k => b2 (ix2 (0 : Fin 1) k)) q := by
  unfold vgate gate
  show vnorm (vmm a1 w1) g1 b1 (ix2 p q) + vnorm (vmm a2 w2) g2 b2 (ix2 p q) = _
  rw [vnorm_apply, vnorm_apply]
  have e1 : (fun k => vmm a1 w1 (ix2 p k)) = rowDot (fun k => a1 (ix2 p k)) (fun k j => w1 (ix2 k j)) :=
    funext fun k => vmm_apply a1 w1 p k
  have e2 : (fun k => vmm a2 w2 (ix2 p k)) = rowDot (fun k => a2 (ix2 p k)) (fun k j => w2 (ix2 k j)) :=
    funext fun k => vmm_apply a2 w2 p k
  rw [e1, e2]

end Cert.GruKernel

end
-- ==== Proof.KernelCell.lean ====
/-
  The kernel body's stored block is the cell of the specification, row by row.

  The body's arithmetic, from the input blocks x (512 rows of the input), h (the same rows of the hidden state),
  the six resident matrices and the two 6 × 1024 parameter arrays, is: r and u are logistic functions of gates of
  (h, x); c is tanh of the gate of (h · r, x); the stored block is (1 − u) · h + u · c. Rows 0 … 5 of the parameter
  arrays are cut out as 1 × 1024 rows. Read at (p, q) this is the specification's cell, with the clamped variance,
  of row p of x and h.
-/
import proofs.«119024_j25838523253290_2_alg».proof.Proof.KernelRow

noncomputable section

open scoped BigOperators

namespace Cert.GruKernel

open Cert.KernelIdeal Cert.KernelIdeal.Gen Idealize.ShloMosaic Idealize.ShloMosaic.ValueIdx Cert.GruSpec

/-- Row r of a 6 × 1024 parameter block as a 1 × 1024 row. -/
def vrowOf (r : Nat) (hs : S6x1024.Slices ![r, 0] S1x1024) (v : FVec Ideal S6x1024 .f32) : FVec Ideal S1x1024 .f32 :=
  extractStridedSlice S1x1024 ![r, 0] v hs

/-- The reset gate on a block. -/
def vr (x h : FVec Ideal S512x1024 .f32) (w2 w3 : FVec Ideal S1024x1024 .bf16) (g b : FVec Ideal S6x1024 .f32) :
    FVec Ideal S512x1024 .f32 :=
  logistic (vgate (truncf .bf16 h bitsLt_bf16_f32) (truncf .bf16 x bitsLt_bf16_f32) w2 w3
    (vrowOf 0 slices_S6x1024_o0_0_S1x1024 g) (vrowOf 0 slices_S6x1024_o0_0_S1x1024 b)
    (vrowOf 1 slices_S6x1024_o1_0_S1x1024 g) (vrowOf 1 slices_S6x1024_o1_0_S1x1024 b))

/-- The update gate on a block. -/
def vu (x h : FVec Ideal S512x1024 .f32) (w4 w5 : FVec Ideal S1024x1024 .bf16) (g b : FVec Ideal S6x1024 .f32) :
    FVec Ideal S512x1024 .f32 :=
  logistic (vgate (truncf .bf16 h bitsLt_bf16_f32) (truncf .bf16 x bitsLt_bf16_f32) w4 w5
    (vrowOf 2 slices_S6x1024_o2_0_S1x1024 g) (vrowOf 2 slices_S6x1024_o2_0_S1x1024 b)
    (vrowOf 3 slices_S6x1024_o3_0_S1x1024 g) (vrowOf 3 slices_S6x1024_o3_0_S1x1024 b))

/-- The candidate state on a block, from the reset gate's block. -/
def vc (x h r : FVec Ideal S512x1024 .f32) (w6 w7 : FVec Ideal S1024x1024 .bf16) (g b : FVec Ideal S6x1024 .f32) :
    FVec Ideal S512x1024 .f32 :=
  tanh (vgate (truncf .bf16 (mulf h r) bitsLt_bf16_f32) (truncf .bf16 x bitsLt_bf16_f32) w6 w7
    (vrowOf 4 slices_S6x1024_o4_0_S1x1024 g) (vrowOf 4 slices_S6x1024_o4_0_S1x1024 b)
    (vrowOf 5 slices_S6x1024_o5_0_S1x1024 g) (vrowOf 5 slices_S6x1024_o5_0_S1x1024 b))

/-- The stored block. -/
def vcell (x h : FVec Ideal S512x1024 .f32) (w2 w3 w4 w5 w6 w7 : FVec Ideal S1024x1024 .bf16) (g b : FVec Ideal S6x1024 .f32) :
    FVec Ideal S512x1024 .f32 :=
  addf (mulf (subf (broadcast S512x1024 (Scalar.ofBits .f32 0x3F800000#32)) (vu x h w4 w5 g b)) h)
    (mulf (vu x h w4 w5 g b) (vc x h (vr x h w2 w3 g b) w6 w7 g b))

/-- The body's payload, composed of its generated pieces, is the stored block above: the pieces are the same
    operations in the same order, cut at other places. -/
theorem payload_eq (x0 x1 : Vec Ideal S512x1024 .f32) (x2 x3 x4 x5 x6 x7 : Vec Ideal S1024x1024 .bf16)
    (x8 x9 : Vec Ideal S6x1024 .f32) :
    k0_pay1 (F := Ideal) x1
        (k0_pay14 (k0_pay2 x0) x8 x9 (k0_pay8 (k0_pay3 x1) x4) (k0_pay9 x8) (k0_pay10 x9) (k0_pay12 (k0_pay3 x1) x4)
          (k0_pay13 (k0_pay3 x1) x4) x5)
        (k0_pay17 x9 (k0_pay15 x1 (k0_pay7 x9 (k0_pay4 x1 x8 x9 x2) (k0_pay5 x0 x3) (k0_pay6 x8)) x6) (k0_pay16 x8))
        (k0_pay19 x8) (k0_pay20 x9) (k0_pay22 (k0_pay2 x0) x7) (k0_pay23 (k0_pay2 x0) x7) (Scalar.ofBits .f32 0x3727C5AC#32)
      = vcell x0 x1 x2 x3 x4 x5 x6 x7 x8 x9 := rfl

/-! ## Read at an index -/

theorem vrowOf_apply (r : Nat) (hr : r < 6) (hs : S6x1024.Slices ![r, 0] S1x1024) (v : FVec Ideal S6x1024 .f32) (k : Fin 1024) :
    vrowOf r hs v (ix2 (0 : Fin 1) k) = v (ix2 (⟨r, hr⟩ : Fin 6) k) := by
  unfold vrowOf
  refine extractStridedSlice_apply ![r, 0] v hs (ix2 (0 : Fin 1) k) (ix2 (⟨r, hr⟩ : Fin 6) k) fun a => ?_
  match a with
  | ⟨0, _⟩ => rfl
  | ⟨1, _⟩ => show k.val = 0 + k.val; omega

/-- The parameter rows of a block as the rows of the specification. -/
abbrev prow (v : FVec Ideal S6x1024 .f32) : Fin 6 → Row := fun r k => v (ix2 r k)

theorem vr_apply (x h : FVec Ideal S512x1024 .f32) (w2 w3 : FVec Ideal S1024x1024 .bf16) (g b : FVec Ideal S6x1024 .f32)
    (p : Fin 512) (k : Fin 1024) :
    vr x h w2 w3 g b (ix2 p k)
      = Ideal.logistic (gate varClamped (fun k => h (ix2 p k)) (fun k => x (ix2 p k)) (fun k j => w2 (ix2 k j))
          (fun k j => w3 (ix2 k j)) (prow g 0) (prow b 0) (prow g 1) (prow b 1) k) := by
  unfold vr
  show Ideal.logistic (vgate _ _ w2 w3 _ _ _ _ (ix2 p k)) = _
  rw [vgate_apply]
  simp only [vrowOf_apply 0 (by decide), vrowOf_apply 1 (by decide)]
  rfl

theorem vu_apply (x h : FVec Ideal S512x1024 .f32) (w4 w5 : FVec Ideal S1024x1024 .bf16) (g b : FVec Ideal S6x1024 .f32)
    (p : Fin 512) (k : Fin 1024) :
    vu x h w4 w5 g b (ix2 p k)
      = Ideal.logistic (gate varClamped (fun k => h (ix2 p k)) (fun k => x (ix2 p k)) (fun k j => w4 (ix2 k j))
          (fun k j => w5 (ix2 k j)) (prow g 2) (prow b 2) (prow g 3) (prow b 3) k) := by
  unfold vu
  show Ideal.logistic (vgate _ _ w4 w5 _ _ _ _ (ix2 p k)) = _
  rw [vgate_apply]
  simp only [vrowOf_apply 2 (by decide), vrowOf_apply 3 (by decide)]
  rfl

theorem vc_apply (x h r : FVec Ideal S512x1024 .f32) (w6 w7 : FVec Ideal S1024x1024 .bf16) (g b : FVec Ideal S6x1024 .f32)
    (p : Fin 512) (k : Fin 1024) :
    vc x h r w6 w7 g b (ix2 p k)
      = Ideal.tanh (gate varClamped (fun k => h (ix2 p k) * r (ix2 p k)) (fun k => x (ix2 p k)) (fun k j => w6 (ix2 k j))
          (fun k j => w7 (ix2 k j)) (prow g 4) (prow b 4) (prow g 5) (prow b 5) k) := by
  unfold vc
  show Ideal.tanh (vgate _ _ w6 w7 _ _ _ _ (ix2 p k)) = _
  rw [vgate_apply]
  simp only [vrowOf_apply 4 (by decide), vrowOf_apply 5 (by decide)]
  rfl

/-- The stored block at (p, q) is the specification's cell of row p. -/
theorem vcell_apply (x h : FVec Ideal S512x1024 .f32) (w2 w3 w4 w5 w6 w7 : FVec Ideal S1024x1024 .bf16)
    (g b : FVec Ideal S6x1024 .f32) (p : Fin 512) (q : Fin 1024) :
    vcell x h w2 w3 w4 w5 w6 w7 g b (ix2 p q)
      = cell varClamped (fun k => x (ix2 p k)) (fun k => h (ix2 p k)) (fun k j => w2 (ix2 k j)) (fun k j => w3 (ix2 k j))
          (fun k j => w4 (ix2 k j)) (fun k j => w5 (ix2 k j)) (fun k j => w6 (ix2 k j)) (fun k j => w7 (ix2 k j))
          (prow g) (prow b) q := by
  unfold vcell cell
  show (Ideal.ofBits .f32 0x3F800000#32 - vu x h w4 w5 g b (ix2 p q)) * h (ix2 p q)
      + vu x h w4 w5 g b (ix2 p q) * vc x h (vr x h w2 w3 g b) w6 w7 g b (ix2 p q) = _
  rw [vu_apply, vc_apply]
  simp only [vr_apply]

end Cert.GruKernel

end
-- ==== Proof.KernelArray.lean ====
/-
  The kernel's result array as the cell of the whole argument arrays, clamped variance.

  The grid has 16 points; point t stages rows 512 · t … 512 · t + 511 of the input and of the hidden state, the six
  weight matrices and the two parameter arrays whole, and writes back rows 512 · t … 512 · t + 511 of the result. The
  weight matrices the region finds are the argument arrays transposed (and changed in float format, which is no
  change of value): entry (k, j) is W(j, k). So what point t writes back is block t of one function of the
  argument arrays, the 16 blocks tile the result array, and the array ends holding that function.
-/
import proofs.«119024_j25838523253290_2_alg».proof.Proof.Gen.KernelIdeal.Value
import proofs.«119024_j25838523253290_2_alg».proof.Proof.KernelCell
import proofs.«119024_j25838523253290_2_alg».proof.Proof.GruArray
import Idealize.ShloMosaic.Lib.ValueLayout
import Idealize.ShloMosaic.Lib.StableHlo.Run

noncomputable section

namespace Cert.GruKernel

open Cert.KernelIdeal Cert.KernelIdeal.Gen Cert.KernelIdeal.Value Idealize.ShloMosaic Idealize.ShloMosaic.TcCoe Idealize.SL.Sem
open Idealize.ShloMosaic.ValueIdx Cert.GruSpec Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 grid points: the input, hidden-state and result windows sit at row block
    t; every other window at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row p of block t is row 512 · t + p of the array. -/
def rowAt (t : Fin cfg0.N) (p : Fin 512) : Fin 8192 :=
  ⟨t.val * 512 + p.val, by have h1 := t.isLt; have h2 : cfg0.N = 16 := N_0; have h3 := p.isLt; omega⟩

/-- Entry (p, q) of block t of the result window is entry (512 · t + p, q) of the result array. -/
theorem emb_out (t : Fin cfg0.N) (p : Fin 512) (q : Fin 1024) :
    ((cfg0.win 10).blk t).view.emb (ix2 p q) = ix2 (rowAt t p) q := by
  obtain ⟨-, -, -, -, e0, e1, -⟩ := idx_facts t
  funext a; apply Fin.ext
  match a with
  | ⟨0, _⟩ => show win0_10.index t (0 : Fin 2) * 512 + 1 * p.val = t.val * 512 + p.val; rw [e0]; omega
  | ⟨1, _⟩ => show win0_10.index t (1 : Fin 2) * 1024 + 1 * q.val = q.val; rw [e1]; omega

/-- Row p, entry k of block t of the input window is entry (512 · t + p, k) of its argument array. -/
theorem iblk_x (c : Dev nD) (t : Fin cfg0.N) (p : Fin 512) (k : Fin 1024) :
    iblk m c 0 t (ix2 p k) = m ((c : Thread nD τ).loc main_arg0) (ix2 (rowAt t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- Row p, entry k of block t of the hidden-state window is entry (512 · t + p, k) of its argument array. -/
theorem iblk_h (c : Dev nD) (t : Fin cfg0.N) (p : Fin 512) (k : Fin 1024) :
    iblk m c 1 t (ix2 p k) = m ((c : Thread nD τ).loc main_arg1) (ix2 (rowAt t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

/-- The array window 2 stages is the transposed argument array, its float format changed. -/
theorem V_w2 (c : Dev nD) :
    (V m c main_v1 : FVec Ideal S1024x1024 .bf16)
      = truncf (F := Ideal) .bf16 (transpose S1024x1024 [1, 0] (m ((c : Thread nD τ).loc main_arg2)) transposes_S1024x1024_S1024x1024_1_0) bitsLt_bf16_f32 := by
  dsimp only [Gen.V, Gen.hostOps0]; after_results

/-- Entry (k, j) of the resident matrix of window 2 is entry (j, k) of its argument array. -/
theorem iblk_w2 (c : Dev nD) (t : Fin cfg0.N) (k j : Fin 1024) :
    iblk m c 2 t (ix2 k j) = m ((c : Thread nD τ).loc main_arg2) (ix2 j k) := by
  obtain ⟨-, -, -, -, -, -, e0, e1, -⟩ := idx_facts t
  show (V m c main_v1 : FVec Ideal S1024x1024 .bf16) (((cfg0.win 2).blk t).view.emb (ix2 k j)) = _
  rw [V_w2]
  have he : ((cfg0.win 2).blk t).view.emb (ix2 k j) = ix2 k j := by
    funext a; apply Fin.ext
    match a with
    | ⟨0, _⟩ => show win0_2.index t (0 : Fin 2) * 1024 + 1 * k.val = k.val; rw [e0]; omega
    | ⟨1, _⟩ => show win0_2.index t (1 : Fin 2) * 1024 + 1 * j.val = j.val; rw [e1]; omega
  rw [he]
  exact transpose_ix2_apply _ _ k j

/-- The array window 3 stages is the transposed argument array, its float format changed. -/
theorem V_w3 (c : Dev nD) :
    (V m c main_v3 : FVec Ideal S1024x1024 .bf16)
      = truncf (F := Ideal) .bf16 (transpose S1024x1024 [1, 0] (m ((c : Thread nD τ).loc main_arg3)) transposes_S1024x1024_S1024x1024_1_0) bitsLt_bf16_f32 := by
  dsimp only [Gen.V, Gen.hostOps0]; after_results

/-- Entry (k, j) of the resident matrix of window 3 is entry (j, k) of its argument array. -/
theorem iblk_w3 (c : Dev nD) (t : Fin cfg0.N) (k j : Fin 1024) :
    iblk m c 3 t (ix2 k j) = m ((c : Thread nD τ).loc main_arg3) (ix2 j k) := by
  obtain ⟨-, -, -, -, -, -, -, -, e0, e1, -⟩ := idx_facts t
  show (V m c main_v3 : FVec Ideal S1024x1024 .bf16) (((cfg0.win 3).blk t).view.emb (ix2 k j)) = _
  rw [V_w3]
  have he : ((cfg0.win 3).blk t).view.emb (ix2 k j) = ix2 k j := by
    funext a; apply Fin.ext
    match a with
    | ⟨0, _⟩ => show win0_3.index t (0 : Fin 2) * 1024 + 1 * k.val = k.val; rw [e0]; omega
    | ⟨1, _⟩ => show win0_3.index t (1 : Fin 2) * 1024 + 1 * j.val = j.val; rw [e1]; omega
  rw [he]
  exact transpose_ix2_apply _ _ k j

/-- The array window 4 stages is the transposed argument array, its float format changed. -/
theorem V_w4 (c : Dev nD) :
    (V m c main_v5 : FVec Ideal S1024x1024 .bf16)
      = truncf (F := Ideal) .bf16 (transpose S1024x1024 [1, 0] (m ((c : Thread nD τ).loc main_arg4)) transposes_S1024x1024_S1024x1024_1_0) bitsLt_bf16_f32 := by
  dsimp only [Gen.V, Gen.hostOps0]; after_results

/-- Entry (k, j) of the resident matrix of window 4 is entry (j, k) of its argument array. -/
theorem iblk_w4 (c : Dev nD) (t : Fin cfg0.N) (k j : Fin 1024) :
    iblk m c 4 t (ix2 k j) = m ((c : Thread nD τ).loc main_arg4) (ix2 j k) := by
  obtain ⟨-, -, -, -, -, -, -, -, -, -, e0, e1, -⟩ := idx_facts t
  show (V m c main_v5 : FVec Ideal S1024x1024 .bf16) (((cfg0.win 4).blk t).view.emb (ix2 k j)) = _
  rw [V_w4]
  have he : ((cfg0.win 4).blk t).view.emb (ix2 k j) = ix2 k j := by
    funext a; apply Fin.ext
    match a with
    | ⟨0, _⟩ => show win0_4.index t (0 : Fin 2) * 1024 + 1 * k.val = k.val; rw [e0]; omega
    | ⟨1, _⟩ => show win0_4.index t (1 : Fin 2) * 1024 + 1 * j.val = j.val; rw [e1]; omega
  rw [he]
  exact transpose_ix2_apply _ _ k j

/-- The array window 5 stages is the transposed argument array, its float format changed. -/
theorem V_w5 (c : Dev nD) :
    (V m c main_v7 : FVec Ideal S1024x1024 .bf16)
      = truncf (F := Ideal) .bf16 (transpose S1024x1024 [1, 0] (m ((c : Thread nD τ).loc main_arg5)) transposes_S1024x1024_S1024x1024_1_0) bitsLt_bf16_f32 := by
  dsimp only [Gen.V, Gen.hostOps0]; after_results

/-- Entry (k, j) of the resident matrix of window 5 is entry (j, k) of its argument array. -/
theorem iblk_w5 (c : Dev nD) (t : Fin cfg0.N) (k j : Fin 1024) :
    iblk m c 5 t (ix2 k j) = m ((c : Thread nD τ).loc main_arg5) (ix2 j k) := by
  obtain ⟨-, -, -, -, -, -, -, -, -, -, -, -, e0, e1, -⟩ := idx_facts t
  show (V m c main_v7 : FVec Ideal S1024x1024 .bf16) (((cfg0.win 5).blk t).view.emb (ix2 k j)) = _
  rw [V_w5]
  have he : ((cfg0.win 5).blk t).view.emb (ix2 k j) = ix2 k j := by
    funext a; apply Fin.ext
    match a with
    | ⟨0, _⟩ => show win0_5.index t (0 : Fin 2) * 1024 + 1 * k.val = k.val; rw [e0]; omega
    | ⟨1, _⟩ => show win0_5.index t (1 : Fin 2) * 1024 + 1 * j.val = j.val; rw [e1]; omega
  rw [he]
  exact transpose_ix2_apply _ _ k j

/-- The array window 6 stages is the transposed argument array, its float format changed. -/
theorem V_w6 (c : Dev nD) :
    (V m c main_v9 : FVec Ideal S1024x1024 .bf16)
      = truncf (F := Ideal) .bf16 (transpose S1024x1024 [1, 0] (m ((c : Thread nD τ).loc main_arg6)) transposes_S1024x1024_S1024x1024_1_0) bitsLt_bf16_f32 := by
  dsimp only [Gen.V, Gen.hostOps0]; after_results

/-- Entry (k, j) of the resident matrix of window 6 is entry (j, k) of its argument array. -/
theorem iblk_w6 (c : Dev nD) (t : Fin cfg0.N) (k j : Fin 1024) :
    iblk m c 6 t (ix2 k j) = m ((c : Thread nD τ).loc main_arg6) (ix2 j k) := by
  obtain ⟨-, -, -, -, -, -, -, -, -, -, -, -, -, -, e0, e1, -⟩ := idx_facts t
  show (V m c main_v9 : FVec Ideal S1024x1024 .bf16) (((cfg0.win 6).blk t).view.emb (ix2 k j)) = _
  rw [V_w6]
  have he : ((cfg0.win 6).blk t).view.emb (ix2 k j) = ix2 k j := by
    funext a; apply Fin.ext
    match a with
    | ⟨0, _⟩ => show win0_6.index t (0 : Fin 2) * 1024 + 1 * k.val = k.val; rw [e0]; omega
    | ⟨1, _⟩ => show win0_6.index t (1 : Fin 2) * 1024 + 1 * j.val = j.val; rw [e1]; omega
  rw [he]
  exact transpose_ix2_apply _ _ k j

/-- The array window 7 stages is the transposed argument array, its float format changed. -/
theorem V_w7 (c : Dev nD) :
    (V m c main_v11 : FVec Ideal S1024x1024 .bf16)
      = truncf (F := Ideal) .bf16 (transpose S1024x1024 [1, 0] (m ((c : Thread nD τ).loc main_arg7)) transposes_S1024x1024_S1024x1024_1_0) bitsLt_bf16_f32 := by
  dsimp only [Gen.V, Gen.hostOps0]; after_results

/-- Entry (k, j) of the resident matrix of window 7 is entry (j, k) of its argument array. -/
theorem iblk_w7 (c : Dev nD) (t : Fin cfg0.N) (k j : Fin 1024) :
    iblk m c 7 t (ix2 k j) = m ((c : Thread nD τ).loc main_arg7) (ix2 j k) := by
  obtain ⟨-, -, -, -, -, -, -, -, -, -, -, -, -, -, -, -, e0, e1, -⟩ := idx_facts t
  show (V m c main_v11 : FVec Ideal S1024x1024 .bf16) (((cfg0.win 7).blk t).view.emb (ix2 k j)) = _
  rw [V_w7]
  have he : ((cfg0.win 7).blk t).view.emb (ix2 k j) = ix2 k j := by
    funext a; apply Fin.ext
    match a with
    | ⟨0, _⟩ => show win0_7.index t (0 : Fin 2) * 1024 + 1 * k.val = k.val; rw [e0]; omega
    | ⟨1, _⟩ => show win0_7.index t (1 : Fin 2) * 1024 + 1 * j.val = j.val; rw [e1]; omega
  rw [he]
  exact transpose_ix2_apply _ _ k j

/-- The parameter window 8 holds its whole argument array. -/
theorem iblk_g (c : Dev nD) (t : Fin cfg0.N) (r : Fin 6) (k : Fin 1024) :
    iblk m c 8 t (ix2 r k) = m ((c : Thread nD τ).loc main_arg8) (ix2 r k) := by
  obtain ⟨-, -, -, -, -, -, -, -, -, -, -, -, -, -, -, -, -, -, e0, e1, -⟩ := idx_facts t
  show V m c main_arg8 (((cfg0.win 8).blk t).view.emb (ix2 r k)) = _
  rw [V_main_arg8]
  refine congrArg _ (funext fun a => Fin.ext ?_)
  match a with
  | ⟨0, _⟩ => show win0_8.index t (0 : Fin 2) * 6 + 1 * r.val = r.val; rw [e0]; omega
  | ⟨1, _⟩ => show win0_8.index t (1 : Fin 2) * 1024 + 1 * k.val = k.val; rw [e1]; omega

/-- The parameter window 9 holds its whole argument array. -/
theorem iblk_b (c : Dev nD) (t : Fin cfg0.N) (r : Fin 6) (k : Fin 1024) :
    iblk m c 9 t (ix2 r k) = m ((c : Thread nD τ).loc main_arg9) (ix2 r k) := by
  obtain ⟨-, -, -, -, -, -, -, -, -, -, -, -, -, -, -, -, -, -, -, -, e0, e1⟩ := idx_facts t
  show V m c main_arg9 (((cfg0.win 9).blk t).view.emb (ix2 r k)) = _
  rw [V_main_arg9]
  refine congrArg _ (funext fun a => Fin.ext ?_)
  match a with
  | ⟨0, _⟩ => show win0_9.index t (0 : Fin 2) * 6 + 1 * r.val = r.val; rw [e0]; omega
  | ⟨1, _⟩ => show win0_9.index t (1 : Fin 2) * 1024 + 1 * k.val = k.val; rw [e1]; omega

/-- The result array as one function of the argument arrays. -/
def result (c : Dev nD) : FVec Ideal S8192x1024 .f32 :=
  cellArr varClamped (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point t writes back is block t of that function. -/
theorem flushed_eq (c : Dev nD) (t : Fin cfg0.N) :
    (dats m 0 c).flushed 10 t = ((cfg0.win 10).blk t).view.read (Elt Ideal) (result m c) := by
  rw [Value.flushed10]
  unfold out0_10
  rw [View.canon_unit_zero hz]
  simp only [View.ld_unit_zero (S := S512x1024) hz, View.ld_unit_zero (S := S6x1024) hz, View.ld_unit_zero (S := S1024x1024) hz]
  rw [payload_eq]
  funext j
  obtain ⟨p, q, rfl⟩ : ∃ (p : Fin 512) (q : Fin 1024), j = ix2 p q := ⟨j 0, j 1, eq_ix2 j⟩
  show vcell _ _ _ _ _ _ _ _ _ _ (ix2 p q) = result m c (((cfg0.win 10).blk t).view.emb (ix2 p q))
  rw [emb_out]
  refine (vcell_apply _ _ _ _ _ _ _ _ _ _ p q).trans ?_
  have eg : prow (iblk m c 8 t) = rows (m ((c : Thread nD τ).loc main_arg8)) :=
    funext fun r => funext fun k => iblk_g m c t r k
  have eb : prow (iblk m c 9 t) = rows (m ((c : Thread nD τ).loc main_arg9)) :=
    funext fun r => funext fun k => iblk_b m c t r k
  simp only [iblk_x, iblk_h, iblk_w2, iblk_w3, iblk_w4, iblk_w5, iblk_w6, iblk_w7]
  rw [eg, eb]
  unfold result
  exact (cellArr_ix2 varClamped (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowAt t p) q).symm

/-- The array after the run is that function: the 16 row blocks tile it. -/
theorem final (c : Dev nD) : (dats m 0 c).arrAt 10 cfg0.N = result m c :=
  (dats m 0 c).arrAt_eq_of_cover 10 (result m c) (fun t _ => flushed_eq m c t) fun i => by
    have hi0 : (i 0 : Nat) < 8192 := (i 0).isLt
    have hi1 : (i 1 : Nat) < 1024 := (i 1).isLt
    have hN : cfg0.N = 16 := N_0
    have hlt : (i 0 : Nat) / 512 < cfg0.N := by omega
    obtain ⟨-, -, -, -, e0, e1, -⟩ := idx_facts ⟨(i 0 : Nat) / 512, hlt⟩
    refine ⟨⟨(i 0 : Nat) / 512, hlt⟩, flush0_10 _, ?_⟩
    show i ∈ ((View.whole main_v12).slice (win0_10.rect ⟨(i 0 : Nat) / 512, hlt⟩)).set
    rw [View.set_slice_whole, Rect.mem_set_unit]
    intro a
    match a with
    | ⟨0, _⟩ =>
      show win0_10.index ⟨(i 0 : Nat) / 512, hlt⟩ (0 : Fin 2) * 512 ≤ (i 0 : Nat)
        ∧ (i 0 : Nat) < win0_10.index ⟨(i 0 : Nat) / 512, hlt⟩ (0 : Fin 2) * 512 + 512
      rw [e0]; show (i 0 : Nat) / 512 * 512 ≤ (i 0 : Nat) ∧ (i 0 : Nat) < (i 0 : Nat) / 512 * 512 + 512; omega
    | ⟨1, _⟩ =>
      show win0_10.index ⟨(i 0 : Nat) / 512, hlt⟩ (1 : Fin 2) * 1024 ≤ (i 1 : Nat)
        ∧ (i 1 : Nat) < win0_10.index ⟨(i 0 : Nat) / 512, hlt⟩ (1 : Fin 2) * 1024 + 1024
      rw [e1]; omega

/-- The kernel's run, its result array named as the cell of the argument arrays. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.GruKernel

end
-- ==== Proof.RefRow.lean ====
/-
  What the reference's host operations compute on the whole 8192 × 1024 arrays, read at an index.

  The reference normalises a whole array y of products: the mean column is the row sums (from the initial value
  0) over 1024, the variance column is the centred form — the row sums of the squared deviations over 1024 —, and
  the gain and bias rows are rows of the 6 × 1024 parameter arrays cut out, flattened, and spread over the 8192
  rows. A product is taken with the transposed weight array, so entry (i, j) sums a(i, k) · W(j, k) over k. The
  logistic function is spelt 1 / (1 + exp(−z)). Read at (i, j) each is the specification's row function applied
  to row i.
-/
import Idealize.ShloMosaic.Lib.Pipeline.Value
import Idealize.ShloMosaic.Lib.ValueIdx
import Idealize.ShloMosaic.Lib.ValueLayout
import Idealize.ShloMosaic.PureOps.Ideal.Laws
import proofs.«119024_j25838523253290_2_alg».proof.Proof.Gen.ReferenceIdeal
import proofs.«119024_j25838523253290_2_alg».proof.Proof.LibRowOps
import proofs.«119024_j25838523253290_2_alg».proof.Proof.LibRowSpread
import proofs.«119024_j25838523253290_2_alg».proof.Proof.LibPlainDot
import proofs.«119024_j25838523253290_2_alg».proof.Proof.GruSpec

noncomputable section

open scoped BigOperators

namespace Cert.GruRef

open Cert.ReferenceIdeal Cert.ReferenceIdeal.Gen Idealize.ShloMosaic Idealize.ShloMosaic.ValueIdx Cert.GruSpec

/-- The row sums of an array from the initial value 0, as an 8192 × 1 column. -/
def hrowsum (y : FVec Ideal S8192x1024 .f32) : FVec Ideal S8192x1 .f32 :=
  broadcastInDim S8192x1 ![0] bcast_S8192_S8192x1_0
    (Host.reduceAdd y (constant S_ .f32 0x00000000#32) reducesTo_S8192x1024_S8192_d1 h_S_)

/-- A scalar literal spread to an 8192 × 1 column. -/
def hlitCol (w : BitVec 32) : FVec Ideal S8192x1 .f32 := broadcastInDim S8192x1 ![] bcast_S_S8192x1 (constant S_ .f32 w)

/-- A scalar literal spread to the whole 8192 × 1024 array. -/
def hlitFull (w : BitVec 32) : FVec Ideal S8192x1024 .f32 :=
  broadcastInDim S8192x1024 ![] bcast_S_S8192x1024 (constant S_ .f32 w)

/-- The mean column of an array of products. -/
def hmean (y : FVec Ideal S8192x1024 .f32) : FVec Ideal S8192x1 .f32 := Host.divf (hrowsum y) (hlitCol 0x44800000#32)

/-- The deviations from the row means. -/
def hdev (y : FVec Ideal S8192x1024 .f32) : FVec Ideal S8192x1024 .f32 :=
  subf y (broadcastInDim S8192x1024 ![0, 1] bcast_S8192x1_S8192x1024_0_1 (hmean y))

/-- The variance column, centred form. -/
def hvar (y : FVec Ideal S8192x1024 .f32) : FVec Ideal S8192x1 .f32 :=
  Host.divf (hrowsum (mulf (hdev y) (hdev y))) (hlitCol 0x44800000#32)

/-- A flat parameter row spread over the 8192 rows. -/
def hspread (v : FVec Ideal S1024 .f32) : FVec Ideal S8192x1024 .f32 :=
  broadcastInDim S8192x1024 ![0, 1] bcast_S1x1024_S8192x1024_0_1 (broadcastInDim S1x1024 ![1] bcast_S1024_S1x1024_1 v)

/-- The normalised array with a gain row and a bias row. -/
def hnorm (y : FVec Ideal S8192x1024 .f32) (gv bv : FVec Ideal S1024 .f32) : FVec Ideal S8192x1024 .f32 :=
  addf (mulf (mulf (hdev y)
        (broadcastInDim S8192x1024 ![0, 1] bcast_S8192x1_S8192x1024_0_1
          (Host.rsqrt (addf (hvar y) (hlitCol 0x3727C5AC#32)))))
      (hspread gv))
    (hspread bv)

/-- Row r of a 6 × 1024 parameter array, cut out and flattened. -/
def hrow (r : Nat) (h : S6x1024.Slices ![r, 0] S1x1024) (v : FVec Ideal S6x1024 .f32) : FVec Ideal S1024 .f32 :=
  shapeCast S1024 (extractStridedSlice S1x1024 ![r, 0] v h) shapeCasts_S1x1024_S1024

/-- An array times the transpose of a weight array. -/
def hmm (a : FVec Ideal S8192x1024 .f32) (W : FVec Ideal S1024x1024 .f32) : FVec Ideal S8192x1024 .f32 :=
  Host.dotGeneral dot_S8192x1024_S1024x1024_S8192x1024_1_0_0_1_n_n none a
    (transpose S1024x1024 [1, 0] W transposes_S1024x1024_S1024x1024_1_0)

/-- A gate before its squashing function, on whole arrays. -/
def hgate (a1 a2 : FVec Ideal S8192x1024 .f32) (W1 W2 : FVec Ideal S1024x1024 .f32) (g1 b1 g2 b2 : FVec Ideal S1024 .f32) :
    FVec Ideal S8192x1024 .f32 :=
  addf (hnorm (hmm a1 W1) g1 b1) (hnorm (hmm a2 W2) g2 b2)

/-- The logistic function as the host spells it. -/
def hsig (z : FVec Ideal S8192x1024 .f32) : FVec Ideal S8192x1024 .f32 :=
  Host.divf (hlitFull 0x3F800000#32) (addf (hlitFull 0x3F800000#32) (Host.exp (Host.negf z)))

/-! ## Read at an index -/

theorem reduces_rows : S8192x1024.Reduces [1] S8192 := by decide

theorem hlitCol_apply (w : BitVec 32) (i : S8192x1.Idx) : hlitCol w i = Ideal.ofBits .f32 w :=
  RowSpread.scalarInDim_apply _ bcast_S_S8192x1 i

theorem hlitFull_apply (w : BitVec 32) (i : S8192x1024.Idx) : hlitFull w i = Ideal.ofBits .f32 w :=
  RowSpread.scalarInDim_apply _ bcast_S_S8192x1024 i

theorem hrowsum_apply (y : FVec Ideal S8192x1024 .f32) (i : Fin 8192) :
    hrowsum y (ix2 i (0 : Fin 1)) = ∑ k : Fin 1024, y (ix2 i k) := by
  refine (RowOps.colInDim_apply _ bcast_S8192_S8192x1_0 i).trans ?_
  refine (RowOps.rowSum_host y _ reducesTo_S8192x1024_S8192_d1 reduces_rows h_S_ i).trans ?_
  show Ideal.ofBits .f32 0x00000000#32 + ∑ j : Fin 1024, y (ix2 i j) = _
  rw [Ideal.ofBits_zero_f32, zero_add]

theorem hmean_apply (y : FVec Ideal S8192x1024 .f32) (i : Fin 8192) :
    hmean y (ix2 i (0 : Fin 1)) = mean (fun k => y (ix2 i k)) := by
  unfold hmean mean
  show Ideal.div (hrowsum y (ix2 i (0 : Fin 1))) (hlitCol 0x44800000#32 (ix2 i (0 : Fin 1))) = _
  rw [hrowsum_apply, hlitCol_apply]

theorem hdev_apply (y : FVec Ideal S8192x1024 .f32) (i : Fin 8192) (j : Fin 1024) :
    hdev y (ix2 i j) = y (ix2 i j) - mean (fun k => y (ix2 i k)) := by
  unfold hdev
  show y (ix2 i j) - broadcastInDim S8192x1024 ![0, 1] bcast_S8192x1_S8192x1024_0_1 (hmean y) (ix2 i j) = _
  rw [RowOps.colInDim2_apply, hmean_apply]

theorem hvar_apply (y : FVec Ideal S8192x1024 .f32) (i : Fin 8192) :
    hvar y (ix2 i (0 : Fin 1)) = varCentred (fun k => y (ix2 i k)) := by
  unfold hvar varCentred
  show Ideal.div (hrowsum (mulf (hdev y) (hdev y)) (ix2 i (0 : Fin 1))) (hlitCol 0x44800000#32 (ix2 i (0 : Fin 1))) = _
  rw [hrowsum_apply, hlitCol_apply]
  show Ideal.div (∑ j : Fin 1024, hdev y (ix2 i j) * hdev y (ix2 i j)) (Ideal.ofBits .f32 0x44800000#32) = _
  simp only [hdev_apply]

/-- A flat row stood up as a 1 × 1024 row: entry j sits at (0, j). -/
theorem rowInDim_apply (v : FVec Ideal S1024 .f32) (j : Fin 1024) :
    broadcastInDim S1x1024 ![1] bcast_S1024_S1x1024_1 v (ix2 (0 : Fin 1) j) = v (ix1 j) := by
  refine broadcastInDim_apply ![1] bcast_S1024_S1x1024_1 v (ix2 (0 : Fin 1) j) (ix1 j) fun ax => ?_
  match ax with
  | ⟨0, _⟩ => rfl

theorem hspread_apply (v : FVec Ideal S1024 .f32) (i : Fin 8192) (j : Fin 1024) : hspread v (ix2 i j) = v (ix1 j) := by
  unfold hspread
  rw [RowSpread.rowInDim2_apply, rowInDim_apply]

theorem hnorm_apply (y : FVec Ideal S8192x1024 .f32) (gv bv : FVec Ideal S1024 .f32) (i : Fin 8192) (j : Fin 1024) :
    hnorm y gv bv (ix2 i j)
      = lnorm varCentred (fun k => y (ix2 i k)) (fun k => gv (ix1 k)) (fun k => bv (ix1 k)) j := by
  unfold hnorm lnorm
  show hdev y (ix2 i j)
      * broadcastInDim S8192x1024 ![0, 1] bcast_S8192x1_S8192x1024_0_1
          (Host.rsqrt (addf (hvar y) (hlitCol 0x3727C5AC#32))) (ix2 i j)
      * hspread gv (ix2 i j) + hspread bv (ix2 i j) = _
  rw [RowOps.colInDim2_apply, hspread_apply, hspread_apply, hdev_apply]
  show (y (ix2 i j) - mean fun k => y (ix2 i k))
      * Ideal.rsqrt (hvar y (ix2 i (0 : Fin 1)) + hlitCol 0x3727C5AC#32 (ix2 i (0 : Fin 1)))
      * gv (ix1 j) + bv (ix1 j) = _
  rw [hvar_apply, hlitCol_apply]

theorem hrow_apply (r : Nat) (hr : r < 6) (h : S6x1024.Slices ![r, 0] S1x1024) (v : FVec Ideal S6x1024 .f32) (k : Fin 1024) :
    hrow r h v (ix1 k) = v (ix2 (⟨r, hr⟩ : Fin 6) k) := by
  unfold hrow
  rw [shapeCast_apply (extractStridedSlice S1x1024 ![r, 0] v h) shapeCasts_S1x1024_S1024 (ix1 k) (ix2 (0 : Fin 1) k) (by
    rw [Shape.rowMajor_val_two, Shape.rowMajor_val_one]; show 0 * 1024 + k.val = k.val; omega)]
  refine extractStridedSlice_apply ![r, 0] v h (ix2 (0 : Fin 1) k) (ix2 (⟨r, hr⟩ : Fin 6) k) fun a => ?_
  match a with
  | ⟨0, _⟩ => rfl
  | ⟨1, _⟩ => show k.val = 0 + k.val; omega

theorem hmm_apply (a : FVec Ideal S8192x1024 .f32) (W : FVec Ideal S1024x1024 .f32) (i : Fin 8192) (j : Fin 1024) :
    hmm a W (ix2 i j) = rowDot (fun k => a (ix2 i k)) (fun k j => W (ix2 j k)) j := by
  unfold hmm rowDot
  refine (PlainDot.dotGeneral_apply none .single a (transpose S1024x1024 [1, 0] W transposes_S1024x1024_S1024x1024_1_0) i j).trans ?_
  refine Finset.sum_congr rfl fun k _ => ?_
  rw [transpose_ix2_apply]

theorem hgate_apply (a1 a2 : FVec Ideal S8192x1024 .f32) (W1 W2 : FVec Ideal S1024x1024 .f32)
    (g1 b1 g2 b2 : FVec Ideal S1024 .f32) (i : Fin 8192) (j : Fin 1024) :
    hgate a1 a2 W1 W2 g1 b1 g2 b2 (ix2 i j)
      = gate varCentred (fun k => a1 (ix2 i k)) (fun k => a2 (ix2 i k)) (fun k j => W1 (ix2 j k)) (fun k j => W2 (ix2 j k))
          (fun k => g1 (ix1 k)) (fun k => b1 (ix1 k)) (fun k => g2 (ix1 k)) (fun k => b2 (ix1 k)) j := by
  unfold hgate gate
  show hnorm (hmm a1 W1) g1 b1 (ix2 i j) + hnorm (hmm a2 W2) g2 b2 (ix2 i j) = _
  rw [hnorm_apply, hnorm_apply]
  have e1 : (fun k => hmm a1 W1 (ix2 i k)) = rowDot (fun k => a1 (ix2 i k)) (fun k j => W1 (ix2 j k)) :=
    funext fun k => hmm_apply a1 W1 i k
  have e2 : (fun k => hmm a2 W2 (ix2 i k)) = rowDot (fun k => a2 (ix2 i k)) (fun k j => W2 (ix2 j k)) :=
    funext fun k => hmm_apply a2 W2 i k
  rw [e1, e2]

theorem hsig_apply (z : FVec Ideal S8192x1024 .f32) (i : S8192x1024.Idx) : hsig z i = Ideal.logistic (z i) := by
  unfold hsig
  show Ideal.div (hlitFull 0x3F800000#32 i) (hlitFull 0x3F800000#32 i + Ideal.exp (-(z i))) = _
  rw [hlitFull_apply, Cert.GruConsts.ofBits_one]
  rfl

end Cert.GruRef

end
-- ==== Proof.RefCell.lean ====
/-
  The reference's result array is the cell of the specification, row by row.

  The reference computes, on whole arrays: r and u as logistic functions (spelt 1 / (1 + exp(−z))) of gates of
  (h, x); c as tanh of the gate of (h · r, x); the result (1 − u) · h + u · c. Rows 0 … 5 of the parameter arrays are
  cut out and flattened. The generated run states the result as a term over named intermediate arrays; that term
  is the composition below, operation for operation. Read at (i, j) it is the specification's cell, with the
  centred variance, of row i of x and h, each weight array entering transposed.
-/
import proofs.«119024_j25838523253290_2_alg».proof.Proof.Gen.ReferenceIdeal.Run
import proofs.«119024_j25838523253290_2_alg».proof.Proof.RefRow

noncomputable section

open scoped BigOperators

namespace Cert.GruRef

open Cert.ReferenceIdeal Cert.ReferenceIdeal.Gen Idealize.ShloMosaic Idealize.ShloMosaic.ValueIdx Cert.GruSpec
open Idealize.ShloMosaic.TcCoe Idealize.SL.Sem Idealize.ShloMosaic.StableHlo

/-- The reset gate on whole arrays. -/
def hr (x h : FVec Ideal S8192x1024 .f32) (Wr Ur : FVec Ideal S1024x1024 .f32) (g b : FVec Ideal S6x1024 .f32) :
    FVec Ideal S8192x1024 .f32 :=
  hsig (hgate h x Wr Ur (hrow 0 slices_S6x1024_S1x1024_0_0 g) (hrow 0 slices_S6x1024_S1x1024_0_0 b)
    (hrow 1 slices_S6x1024_S1x1024_1_0 g) (hrow 1 slices_S6x1024_S1x1024_1_0 b))

/-- The update gate on whole arrays. -/
def hu (x h : FVec Ideal S8192x1024 .f32) (Wu Uu : FVec Ideal S1024x1024 .f32) (g b : FVec Ideal S6x1024 .f32) :
    FVec Ideal S8192x1024 .f32 :=
  hsig (hgate h x Wu Uu (hrow 2 slices_S6x1024_S1x1024_2_0 g) (hrow 2 slices_S6x1024_S1x1024_2_0 b)
    (hrow 3 slices_S6x1024_S1x1024_3_0 g) (hrow 3 slices_S6x1024_S1x1024_3_0 b))

/-- The candidate state on whole arrays, from the reset gate's array. -/
def hc (x h r : FVec Ideal S8192x1024 .f32) (Wc Uc : FVec Ideal S1024x1024 .f32) (g b : FVec Ideal S6x1024 .f32) :
    FVec Ideal S8192x1024 .f32 :=
  Host.tanh (hgate (mulf h r) x Wc Uc (hrow 4 slices_S6x1024_S1x1024_4_0 g) (hrow 4 slices_S6x1024_S1x1024_4_0 b)
    (hrow 5 slices_S6x1024_S1x1024_5_0 g) (hrow 5 slices_S6x1024_S1x1024_5_0 b))

/-- The result array. -/
def hcell (x h : FVec Ideal S8192x1024 .f32) (Wr Ur Wu Uu Wc Uc : FVec Ideal S1024x1024 .f32) (g b : FVec Ideal S6x1024 .f32) :
    FVec Ideal S8192x1024 .f32 :=
  addf (mulf (subf (hlitFull 0x3F800000#32) (hu x h Wu Uu g b)) h)
    (mulf (hu x h Wu Uu g b) (hc x h (hr x h Wr Ur g b) Wc Uc g b))

/-- The reference's run, its result named as the composition above. -/
theorem run_cell (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v201)
          = hcell (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans rfl, (h c).2⟩) (Cert.ReferenceIdeal.Value.run (F := Ideal) m ρ)

/-! ## Read at an index -/

/-- The parameter rows of an array as the rows of the specification. -/
abbrev prow (v : FVec Ideal S6x1024 .f32) : Fin 6 → Row := fun r k => v (ix2 r k)

theorem hr_apply (x h : FVec Ideal S8192x1024 .f32) (Wr Ur : FVec Ideal S1024x1024 .f32) (g b : FVec Ideal S6x1024 .f32)
    (i : Fin 8192) (k : Fin 1024) :
    hr x h Wr Ur g b (ix2 i k)
      = Ideal.logistic (gate varCentred (fun k => h (ix2 i k)) (fun k => x (ix2 i k)) (fun k j => Wr (ix2 j k))
          (fun k j => Ur (ix2 j k)) (prow g 0) (prow b 0) (prow g 1) (prow b 1) k) := by
  unfold hr
  rw [hsig_apply, hgate_apply]
  simp only [hrow_apply 0 (by decide), hrow_apply 1 (by decide)]
  rfl

theorem hu_apply (x h : FVec Ideal S8192x1024 .f32) (Wu Uu : FVec Ideal S1024x1024 .f32) (g b : FVec Ideal S6x1024 .f32)
    (i : Fin 8192) (k : Fin 1024) :
    hu x h Wu Uu g b (ix2 i k)
      = Ideal.logistic (gate varCentred (fun k => h (ix2 i k)) (fun k => x (ix2 i k)) (fun k j => Wu (ix2 j k))
          (fun k j => Uu (ix2 j k)) (prow g 2) (prow b 2) (prow g 3) (prow b 3) k) := by
  unfold hu
  rw [hsig_apply, hgate_apply]
  simp only [hrow_apply 2 (by decide), hrow_apply 3 (by decide)]
  rfl

theorem hc_apply (x h r : FVec Ideal S8192x1024 .f32) (Wc Uc : FVec Ideal S1024x1024 .f32) (g b : FVec Ideal S6x1024 .f32)
    (i : Fin 8192) (k : Fin 1024) :
    hc x h r Wc Uc g b (ix2 i k)
      = Ideal.tanh (gate varCentred (fun k => h (ix2 i k) * r (ix2 i k)) (fun k => x (ix2 i k)) (fun k j => Wc (ix2 j k))
          (fun k j => Uc (ix2 j k)) (prow g 4) (prow b 4) (prow g 5) (prow b 5) k) := by
  unfold hc
  show Ideal.tanh (hgate _ _ Wc Uc _ _ _ _ (ix2 i k)) = _
  rw [hgate_apply]
  simp only [hrow_apply 4 (by decide), hrow_apply 5 (by decide)]
  rfl

/-- The result array at (i, j) is the specification's cell of row i. -/
theorem hcell_apply (x h : FVec Ideal S8192x1024 .f32) (Wr Ur Wu Uu Wc Uc : FVec Ideal S1024x1024 .f32)
    (g b : FVec Ideal S6x1024 .f32) (i : Fin 8192) (j : Fin 1024) :
    hcell x h Wr Ur Wu Uu Wc Uc g b (ix2 i j)
      = cell varCentred (fun k => x (ix2 i k)) (fun k => h (ix2 i k)) (fun k j => Wr (ix2 j k)) (fun k j => Ur (ix2 j k))
          (fun k j => Wu (ix2 j k)) (fun k j => Uu (ix2 j k)) (fun k j => Wc (ix2 j k)) (fun k j => Uc (ix2 j k))
          (prow g) (prow b) j := by
  unfold hcell cell
  show (hlitFull 0x3F800000#32 (ix2 i j) - hu x h Wu Uu g b (ix2 i j)) * h (ix2 i j)
      + hu x h Wu Uu g b (ix2 i j) * hc x h (hr x h Wr Ur g b) Wc Uc g b (ix2 i j) = _
  rw [hu_apply, hc_apply, hlitFull_apply]
  simp only [hr_apply]

end Cert.GruRef

end
-- ==== Proof.RefArray.lean ====
/-
  The reference's result array as the cell of the whole argument arrays, centred variance.
-/
import proofs.«119024_j25838523253290_2_alg».proof.Proof.RefCell
import proofs.«119024_j25838523253290_2_alg».proof.Proof.GruArray

noncomputable section

namespace Cert.GruRef

open Cert.ReferenceIdeal Idealize.ShloMosaic Idealize.ShloMosaic.ValueIdx Cert.GruSpec

/-- Entry by entry the reference's composition is the cell of the row, each weight array entering transposed. -/
theorem hcell_eq (x h : FVec Ideal S8192x1024 .f32) (Wr Ur Wu Uu Wc Uc : FVec Ideal S1024x1024 .f32)
    (g b : FVec Ideal S6x1024 .f32) :
    hcell x h Wr Ur Wu Uu Wc Uc g b = cellArr varCentred x h Wr Ur Wu Uu Wc Uc g b := by
  funext i
  obtain ⟨p, q, rfl⟩ : ∃ (p : Fin 8192) (q : Fin 1024), i = ix2 p q := ⟨i 0, i 1, eq_ix2 i⟩
  rw [cellArr_ix2]
  exact hcell_apply x h Wr Ur Wu Uu Wc Uc g b p q

end Cert.GruRef

end
-- ==== Proof.lean ====
/-
  A layer-normalised gated recurrent cell: the tiled kernel against the whole-array reference, over the extended
  reals.

  Both programs compute, for each of 8192 rows, with x the input row, h the hidden-state row, six 1024 × 1024
  weight arrays entering transposed, and rows 0 … 5 of two parameter arrays as gains and biases of six layer
  normalisations LN:

      r = logistic(LN₀(h Wrᵀ) + LN₁(x Urᵀ)),   u = logistic(LN₂(h Wuᵀ) + LN₃(x Uuᵀ)),
      c = tanh(LN₄((h · r) Wcᵀ) + LN₅(x Ucᵀ)),  out = (1 − u) · h + u · c.

  They differ in one place. The kernel takes a row's variance as max(mean of squares − squared mean, 0); the
  reference as the mean of the squared deviations from the mean. On a row of real numbers these are one number
  (the variance law, and a mean of squares is not negative); on rows with an infinite entry they need not be. The
  precondition makes every entry of every argument a real number, and every row that is normalised — a product
  of real rows and matrices, once with the hidden row scaled by a logistic value — is then a row of real numbers.

  The kernel runs 16 grid points; point t computes rows 512 · t … 512 · t + 511 from those rows of x and h and the
  whole weight and parameter arrays, and the 16 blocks tile the result. Changes of float format are the identity
  here, a matrix product into a zero accumulator and the host's product are the same sum, a lane reduction and
  the host's reduction are the same row sum, and the kernel's logistic operation is the reference's
  1 / (1 + exp(−z)). The sanctioned idealisation rewrote nothing, so its conjunct is trivial.
-/
import proofs.«119024_j25838523253290_2_alg».proof.Defs
import proofs.«119024_j25838523253290_2_alg».proof.Proof.Gen.Kernel
import proofs.«119024_j25838523253290_2_alg».proof.Proof.Gen.Kernel.Frame
import proofs.«119024_j25838523253290_2_alg».proof.Proof.Gen.KernelIdeal
import proofs.«119024_j25838523253290_2_alg».proof.Proof.Gen.KernelIdeal.Frame
import proofs.«119024_j25838523253290_2_alg».proof.Proof.Gen.ReferenceIdeal
import proofs.«119024_j25838523253290_2_alg».proof.Proof.Gen.ReferenceIdeal.Run
import proofs.«119024_j25838523253290_2_alg».proof.Proof.Gen.Pre_finite_inputs
import proofs.«119024_j25838523253290_2_alg».proof.Proof.GruArray
import proofs.«119024_j25838523253290_2_alg».proof.Proof.Finite
import proofs.«119024_j25838523253290_2_alg».proof.Proof.KernelArray
import proofs.«119024_j25838523253290_2_alg».proof.Proof.RefArray

noncomputable section

namespace Cert.Proof

open Idealize.ShloMosaic Idealize.SL.Sem Cert.GruSpec

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the cell of the argument arrays: the kernel
    under the clamped variance, the reference under the centred one, and on real arguments these are one array. -/
theorem algebraic : Cert.algebraic_KernelIdeal_ReferenceIdeal := by
  intro m ρ m' ρ' hpre hagree
  refine ⟨fun c => Cert.GruKernel.result m c, Cert.GruKernel.run m ρ, ?_⟩
  refine (θ_run Cert.ReferenceIdeal.defs _ _).mono (fun _ h c => ⟨(h c).1.trans ?_, (h c).2⟩)
    (Cert.GruRef.run_cell m' ρ')
  obtain ⟨a0, a1, a2, a3, a4, a5, a6, a7, a8, a9⟩ := hagree c
  rw [a0, a1, a2, a3, a4, a5, a6, a7, a8, a9, Cert.GruRef.hcell_eq]
  obtain ⟨r0, r1, r2, r3, r4, r5, r6, r7, r8, r9⟩ := Cert.GruFinite.real_of_pre _ _ _ _ _ _ _ _ _ _ (hpre c)
  exact (cellArr_var _ _ _ _ _ _ _ _ _ _ r0 r1 r2 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
